-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x256 : Shape := ⟨3, ![32, 128, 256]⟩
abbrev S32x128 : Shape := ⟨2, ![32, 128]⟩
abbrev S_ : Shape := ⟨0, ![]⟩

class Facts : Prop where
  bcast_S_S32x128x256 : S_.BroadcastsInDim S32x128x256 (![] : Fin 0 → Fin S32x128x256.rank)
  reducesTo_S32x128x256_S_d0_1_2 : S32x128x256.ReducesTo [0, 1, 2] S_
  h_S_ : 0 < S_.numel
  bcast_S_S32x128 : S_.BroadcastsInDim S32x128 (![] : Fin 0 → Fin S32x128.rank)
  reducesTo_S32x128_S_d0_1 : S32x128.ReducesTo [0, 1] S_

variable [Facts]

def fn {F : FTy → Type} [FloatOps F] (main_arg0 : FVec F S32x128x256 .f32) (main_arg1 : FVec F S32x128x256 .f32) (main_arg2 : FVec F S32x128 .f32) : IVec S_ 1 :=
  let main_v0 : FVec F S32x128x256 .f32 := Host.absf main_arg0
  let main_cst : FVec F S_ .f32 := constant S_ .f32 0x7F800000#32
  let main_v1 : FVec F S32x128x256 .f32 := broadcastInDim S32x128x256 ![] bcast_S_S32x128x256 main_cst
  let main_v2 : IVec S32x128x256 1 := cmpf .olt main_v0 main_v1
  let main_c : IVec S_ 1 := constantI S_ 1 1#1
  let main_v3 : IVec S_ 1 := (fun x v => Host.reduce IntOp.andi x v reducesTo_S32x128x256_S_d0_1_2 h_S_) main_v2 main_c
  let main_v4 : FVec F S32x128x256 .f32 := Host.absf main_arg1
  let main_cst_0 : FVec F S_ .f32 := constant S_ .f32 0x7F800000#32
  let main_v5 : FVec F S32x128x256 .f32 := broadcastInDim S32x128x256 ![] bcast_S_S32x128x256 main_cst_0
  let main_v6 : IVec S32x128x256 1 := cmpf .olt main_v4 main_v5
  let main_c_1 : IVec S_ 1 := constantI S_ 1 1#1
  let main_v7 : IVec S_ 1 := (fun x v => Host.reduce IntOp.andi x v reducesTo_S32x128x256_S_d0_1_2 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  main_v13
-- ==== Kernel.lean ====
abbrev S32x128x256 : Shape := ⟨3, ![32, 128, 256]⟩
abbrev S32x128 : Shape := ⟨2, ![32, 128]⟩
abbrev S32x128x1 : Shape := ⟨3, ![32, 128, 1]⟩
abbrev S32x256x256 : Shape := ⟨3, ![32, 256, 256]⟩
abbrev S8x128x256 : Shape := ⟨3, ![8, 128, 256]⟩
abbrev S8x128x1 : Shape := ⟨3, ![8, 128, 1]⟩
abbrev S8x256x256 : Shape := ⟨3, ![8, 256, 256]⟩

abbrev nBuf : Space → Nat
  | .hbm => 6
  | .vmem => 10
  | .smem => 0
  | _ => 0

abbrev bufTy : (tb : Table) → Fin (tcTables nBuf tb) → BufTy
  | .hbm, ⟨0, _⟩ => ⟨S32x128x256, .f32⟩
  | .hbm, ⟨1, _⟩ => ⟨S32x128x256, .f32⟩
  | .hbm, ⟨2, _⟩ => ⟨S32x128, .f32⟩
  | .hbm, ⟨3, _⟩ => ⟨S32x128x1, .f32⟩
  | .hbm, ⟨4, _⟩ => ⟨S32x256x256, .f32⟩
  | .hbm, ⟨5, _⟩ => ⟨S32x256x256, .f32⟩
  | .local _ .vmem, ⟨0, _⟩ => ⟨S8x128x256, .f32⟩
  | .local _ .vmem, ⟨1, _⟩ => ⟨S8x128x256, .f32⟩
  | .local _ .vmem, ⟨2, _⟩ => ⟨S8x128x256, .f32⟩
  | .local _ .vmem, ⟨3, _⟩ => ⟨S8x128x256, .f32⟩
  | .local _ .vmem, ⟨4, _⟩ => ⟨S8x128x1, .f32⟩
  | .local _ .vmem, ⟨5, _⟩ => ⟨S8x128x1, .f32⟩
  | .local _ .vmem, ⟨6, _⟩ => ⟨S8x256x256, .f32⟩
  | .local _ .vmem, ⟨7, _⟩ => ⟨S8x256x256, .f32⟩
  | .local _ .vmem, ⟨8, _⟩ => ⟨S8x256x256, .f32⟩
  | .local _ .vmem, ⟨9, _⟩ => ⟨S8x256x256, .f32⟩
  | _, _ => ⟨S32x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x128_S32x128x1 : S32x128.ShapeCasts S32x128x1
  inb_S8x128x256_S8x128x256_0_0_0 : ∀ a, (![0, 0, 0] : Fin 3 → Nat) a + S8x128x256.size a ≤ S8x128x256.size a
  h_S8x128x256 : 0 < S8x128x256.numel
  inb_S8x128x1_S8x128x1_0_0_0 : ∀ a, (![0, 0, 0] : Fin 3 → Nat) a + S8x128x1.size a ≤ S8x128x1.size a
  h_S8x128x1 : 0 < S8x128x1.numel
  shapeCasts_S8x128x1_S8x128x1 : S8x128x1.ShapeCasts S8x128x1
  broadcasts_S8x128x1_S8x128x256 : S8x128x1.Broadcasts S8x128x256
  inb_S8x256x256_S8x256x256_0_0_0 : ∀ a, (![0, 0, 0] : Fin 3 → Nat) a + S8x256x256.size a ≤ S8x256x256.size a
  h_S8x256x256 : 0 < S8x256x256.numel
  dot_S8x128x256_S8x128x256_S8x256x256_1_1_2_2_0_0_wf : DotDims.WF S8x128x256 S8x128x256 S8x256x256 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x256.size a ≤ S32x128x256.size a
  hwx0_0 : ∀ i : grid0.Coords, EltTy.bits .f32 = 32 ∨ (Rect.block (s := S32x128x256) S8x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x256.size a ≤ S32x128x256.size a
  hwx0_1 : ∀ i : grid0.Coords, EltTy.bits .f32 = 32 ∨ (Rect.block (s := S32x128x256) S8x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x1.size a ≤ S32x128x1.size a
  hwx0_2 : ∀ i : grid0.Coords, EltTy.bits .f32 = 32 ∨ (Rect.block (s := S32x128x1) S8x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S32x256x256.size a
  hwx0_3 : ∀ i : grid0.Coords, EltTy.bits .f32 = 32 ∨ (Rect.block (s := S32x256x256) S8x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x256.size a ≤ S32x256x256.size a
  hwx0_4 : ∀ i : grid0.Coords, EltTy.bits .f32 = 32 ∨ (Rect.block (s := S32x256x256) S8x256x256.size (cc0_transform_4 i) (hinb0_4 i)).WholeWords (EltTy.packing .f32)

variable [Facts₀]

def dot_S8x128x256_S8x128x256_S8x256x256_1_1_2_2_0_0 : DotDims S8x128x256 S8x128x256 S8x256x256 where
  lhsContracting := [1]
  rhsContracting := [1]
  lhsNonContracting := [2]
  rhsNonContracting := [2]
  lhsBatch := [0]
  rhsBatch := [0]
  wf := dot_S8x128x256_S8x128x256_S8x256x256_1_1_2_2_0_0_wf

abbrev win0_0 : Pipeline.Window sig grid0 :=
  Pipeline.Window.ofSpec (Memref.whole main_arg0) S8x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S8x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S8x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x128x256 : Shape := ⟨3, ![32, 128, 256]⟩
abbrev S32x128 : Shape := ⟨2, ![32, 128]⟩
abbrev S32x128x1 : Shape := ⟨3, ![32, 128, 1]⟩
abbrev S32x256x256 : Shape := ⟨3, ![32, 256, 256]⟩

abbrev nBuf : Space → Nat
  | .hbm => 15
  | .vmem => 0
  | .smem => 0
  | _ => 0

abbrev bufTy : (tb : Table) → Fin (tcTables nBuf tb) → BufTy
  | .hbm, ⟨0, _⟩ => ⟨S32x128x256, .f32⟩
  | .hbm, ⟨1, _⟩ => ⟨S32x128x256, .f32⟩
  | .hbm, ⟨2, _⟩ => ⟨S32x128, .f32⟩
  | .hbm, ⟨3, _⟩ => ⟨S32x128x1, .f32⟩
  | .hbm, ⟨4, _⟩ => ⟨S32x128x256, .f32⟩
  | .hbm, ⟨5, _⟩ => ⟨S32x128x256, .f32⟩
  | .hbm, ⟨6, _⟩ => ⟨S32x128x1, .f32⟩
  | .hbm, ⟨7, _⟩ => ⟨S32x128x256, .f32⟩
  | .hbm, ⟨8, _⟩ => ⟨S32x128x256, .f32⟩
  | .hbm, ⟨9, _⟩ => ⟨S32x256x256, .f32⟩
  | .hbm, ⟨10, _⟩ => ⟨S32x256x256, .f32⟩
  | .hbm, ⟨11, _⟩ => ⟨S32x256x256, .f32⟩
  | .hbm, ⟨12, _⟩ => ⟨S32x256x256, .f32⟩
  | .hbm, ⟨13, _⟩ => ⟨S32x256x256, .f32⟩
  | .hbm, ⟨14, _⟩ => ⟨S32x256x256, .f32⟩
  | _, _ => ⟨S32x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  bcast_S32x128_S32x128x1_0_1 : S32x128.BroadcastsInDim S32x128x1 (![0, 1] : Fin 2 → Fin S32x128x1.rank)
  bcast_S32x128x1_S32x128x256_0_1_2 : S32x128x1.BroadcastsInDim S32x128x256 (![0, 1, 2] : Fin 3 → Fin S32x128x256.rank)
  dot_S32x128x256_S32x128x256_S32x256x256_1_1_2_2_0_0_wf : DotDims.WF S32x128x256 S32x128x256 S32x256x256 [1] [1] [2] [2] [0] [0]

variable [Facts₀]

def dot_S32x128x256_S32x128x256_S32x256x256_1_1_2_2_0_0 : DotDims S32x128x256 S32x128x256 S32x256x256 where
  lhsContracting := [1]
  rhsContracting := [1]
  lhsNonContracting := [2]
  rhsNonContracting := [2]
  lhsBatch := [0]
  rhsBatch := [0]
  wf := dot_S32x128x256_S32x128x256_S32x256x256_1_1_2_2_0_0_wf

class Facts : Prop extends Facts₀ where

variable [Facts]
-- ==== Proof.LibERealMatmul.lean ====
import Mathlib.Data.EReal.Basic
import Mathlib.Data.EReal.Operations
import Mathlib.Algebra.BigOperators.Fin
import Mathlib.Data.Fintype.BigOperators
import Mathlib.Logic.Equiv.Fin.Basic

/-!
# Finite extended reals, reassociation of a triple matrix product, blocked sums

Multiplication does not distribute over addition on all of `EReal` (for instance
`(1 + -1) * ⊤ = 0` while `1 * ⊤ + -1 * ⊤ = ⊤ + ⊥ = ⊥`), so the identity
`a · (h · w) = (a · h) · w` for matrices over `EReal` needs every entry to be finite.
Addition alone is commutative and associative on `EReal`, so splitting a sum over an
index range into consecutive blocks needs no hypothesis.
-/

namespace Cert.LibERealMatmul

open Finset

/-- The coercion `ℝ → EReal` commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih =>
    rw [Finset.sum_insert ha, Finset.sum_insert ha, EReal.coe_add, ih]

/-- An extended real is finite when it is the coercion of a real number. -/
def IsFin (x : EReal) : Prop := ∃ r : ℝ, x = (r : EReal)

/-- Finite means different from both infinities. -/
theorem isFin_iff (x : EReal) : IsFin x ↔ x ≠ ⊤ ∧ x ≠ ⊥ := by
  constructor
  · rintro ⟨r, rfl⟩
    exact ⟨EReal.coe_ne_top r, EReal.coe_ne_bot r⟩
  · rintro ⟨h1, h2⟩
    exact ⟨x.toReal, (EReal.coe_toReal h1 h2).symm⟩

/-- Zero is finite. -/
theorem isFin_zero : IsFin 0 := ⟨0, EReal.coe_zero.symm⟩

/-- One is finite. -/
theorem isFin_one : IsFin 1 := ⟨1, rfl⟩

/-- The coercion of a real number is finite. -/
theorem isFin_coe (r : ℝ) : IsFin (r : EReal) := ⟨r, rfl⟩

/-- The sum of two finite extended reals is finite. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The product of two finite extended reals is finite. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The negation of a finite extended real is finite. -/
theorem IsFin.neg {x : EReal} (hx : IsFin x) : IsFin (-x) := by
  obtain ⟨a, rfl⟩ := hx
  exact ⟨-a, (EReal.coe_neg a).symm⟩

/-- The difference of two finite extended reals is finite. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The maximum of two finite extended reals is finite. -/
theorem IsFin.max {x y : EReal} (hx : IsFin x) (hy : IsFin y) : IsFin (x ⊔ y) := by
  obtain ⟨a, rfl⟩ := hx
  obtain ⟨b, rfl⟩ := hy
  exact ⟨a ⊔ b, (EReal.coe_strictMono.monotone.map_max).symm⟩

/-- The minimum of two finite extended reals is finite. -/
theorem IsFin.min {x y : EReal} (hx : IsFin x) (hy : IsFin y) : IsFin (x ⊓ y) := by
  obtain ⟨a, rfl⟩ := hx
  obtain ⟨b, rfl⟩ := hy
  exact ⟨a ⊓ b, (EReal.coe_strictMono.monotone.map_min).symm⟩

/-- A finite sum of finite extended reals is finite. -/
theorem IsFin.sum {ι : Type*} (s : Finset ι) (f : ι → EReal) (hf : ∀ i ∈ s, IsFin (f i)) :
    IsFin (∑ i ∈ s, f i) := by
  classical
  induction s using Finset.induction_on with
  | empty => simpa using isFin_zero
  | insert a s ha ih =>
    rw [Finset.sum_insert ha]
    exact (hf a (Finset.mem_insert_self a s)).add
      (ih fun i hi => hf i (Finset.mem_insert_of_mem hi))

/-- A sum over a whole finite type of finite extended reals is finite. -/
theorem IsFin.sum_univ {ι : Type*} [Fintype ι] (f : ι → EReal) (hf : ∀ i, IsFin (f i)) :
    IsFin (∑ i, f i) :=
  IsFin.sum Finset.univ f fun i _ => hf i

/-- Reassociation of a vector–matrix–vector product over finite extended reals:
`∑ i, a i * (∑ j, h i j * w j) = ∑ j, (∑ i, a i * h i j) * w j` when every `a i`,
`h i j` and `w j` is finite.  (Read with `a` a fixed row of the left matrix and `w` a
fixed column of the right matrix, this is `A · (H · W) = (A · H) · W` entry by entry.) -/
theorem matmul_assoc {ι κ : Type*} [Fintype ι] [Fintype κ]
    (a : ι → EReal) (h : ι → κ → EReal) (w : κ → EReal)
    (ha : ∀ i, IsFin (a i)) (hh : ∀ i j, IsFin (h i j)) (hw : ∀ j, IsFin (w j)) :
    ∑ i, a i * (∑ j, h i j * w j) = ∑ j, (∑ i, a i * h i j) * w j := by
  choose a' ha' using ha
  choose h' hh' using hh
  choose w' hw' using hw
  obtain rfl : a = fun i => ((a' i : ℝ) : EReal) := funext ha'
  obtain rfl : h = fun i j => ((h' i j : ℝ) : EReal) := funext fun i => funext (hh' i)
  obtain rfl : w = fun j => ((w' j : ℝ) : EReal) := funext hw'
  simp only [← EReal.coe_mul, ← coe_sum]
  congr 1
  simp only [Finset.mul_sum, Finset.sum_mul]
  rw [Finset.sum_comm]
  simp only [mul_assoc]

/-- One block: adding a sum to a zero accumulator gives the sum. -/
theorem blocked_sum1 {n : ℕ} (f : Fin n → EReal) : 0 + ∑ k, f k = ∑ k, f k :=
  zero_add _

/-- Three blocks: accumulating the three block sums `∑ k, f 0 k`, `∑ k, f 1 k`, `∑ k, f 2 k`
one after the other onto a zero accumulator gives the sum over all pairs
`(block, position in block)`. -/
theorem blocked_sum3 (n : ℕ) (f : Fin 3 → Fin n → EReal) :
    ((0 + ∑ k, f 0 k) + ∑ k, f 1 k) + ∑ k, f 2 k = ∑ p : Fin 3 × Fin n, f p.1 p.2 := by
  rw [Fintype.sum_prod_type', Fin.sum_univ_three, zero_add]

/-- Any number `m` of blocks of length `n`: the sum over `Fin (m * n)` is the sum over blocks
`i : Fin m` of the sum over positions `k : Fin n`, where block `i`, position `k` is the flat
index `i * n + k`. -/
theorem blocked_sum_fin (m n : ℕ) (g : Fin (m * n) → EReal)
    (hlt : ∀ (i : Fin m) (k : Fin n), (i : ℕ) * n + (k : ℕ) < m * n) :
    ∑ i : Fin m, ∑ k : Fin n, g ⟨(i : ℕ) * n + (k : ℕ), hlt i k⟩ = ∑ j : Fin (m * n), g j := by
  rw [← (finProdFinEquiv (m := m) (n := n)).sum_comp g, Fintype.sum_prod_type]
  refine Finset.sum_congr rfl fun i _ => Finset.sum_congr rfl fun k _ => ?_
  congr 1
  apply Fin.ext
  simp [finProdFinEquiv, Nat.mul_comm, Nat.add_comm]

/-- Three blocks of length `n` over the flat index range `Fin (3 * n)`: block `b`
(`b = 0, 1, 2`), position `k : Fin n` is the flat index `b * n + k`, written literally as
`0 * n + k`, `1 * n + k`, `2 * n + k`.  Accumulating the three block sums one after the other
onto a zero accumulator gives the sum over the whole range. -/
theorem blocked_sum3_fin (n : ℕ) (g : Fin (3 * n) → EReal) :
    ((0 + ∑ k : Fin n, g ⟨0 * n + (k : ℕ), by omega⟩)
        + ∑ k : Fin n, g ⟨1 * n + (k : ℕ), by omega⟩)
        + ∑ k : Fin n, g ⟨2 * n + (k : ℕ), by omega⟩ = ∑ j : Fin (3 * n), g j := by
  have hlt : ∀ (i : Fin 3) (k : Fin n), (i : ℕ) * n + (k : ℕ) < 3 * n := by
    intro i k
    have hi : (i : ℕ) ≤ 2 := by omega
    have := Nat.mul_le_mul_right n hi
    omega
  rw [← blocked_sum_fin 3 n g hlt, Fin.sum_univ_three, zero_add]
  rfl

end Cert.LibERealMatmul
-- ==== Proof.Spec.lean ====
/-
  The weighted mixture of rank-one matrices, as functions of the three argument arrays.

  For a batch `b`, data arrays `r, im : [32, 128, 256]` and weights `w : [32, 128]`, write
  `⟨x, y⟩ b n m = ∑ s, (x[b,s,n] · w[b,s]) · y[b,s,m]` (a weighted contraction over the 128 sequence positions).
  The real output is `⟨r, r⟩ + ⟨im, im⟩` and the imaginary output is `⟨im, r⟩ − ⟨r, im⟩`.
  A second way to reach the imaginary output uses three contractions instead of four:
  `(∑ s, (r·w + im·w)[b,s,n] · (r − im)[b,s,m]) − ⟨r, r⟩ + ⟨im, im⟩`. Expanding the product gives
  `⟨r,r⟩ − ⟨r,im⟩ + ⟨im,r⟩ − ⟨im,im⟩`, and the two outer terms cancel. Expanding a product over a sum and
  cancelling are laws of the real numbers that fail at the infinities of the extended reals, so the two ways
  agree when every entry of the three arrays is finite.
-/
import Idealize.ShloMosaic.PureOps.Ideal
import Idealize.ShloMosaic.Lib.ValueIdx
import proofs.«129453_j71313636983193_2_alg».proof.Proof.LibERealMatmul

noncomputable section

open Idealize.ShloMosaic Idealize.ShloMosaic.ValueIdx Cert.LibERealMatmul
open scoped BigOperators

namespace Cert.Mixture

/-- The shape of the two data arrays: batch, sequence position, column. -/
abbrev SData : Shape := ⟨3, ![32, 128, 256]⟩
/-- The shape of the weights: batch, sequence position. -/
abbrev SWeight : Shape := ⟨2, ![32, 128]⟩
/-- The shape of each output: batch, row, column. -/
abbrev SOut : Shape := ⟨3, ![32, 256, 256]⟩

/-- Four-term expansion with cancellation, over the reals lifted to the extended reals: for finite families
    `a b c d`, `(∑ (a + b)·(c − d) − ∑ a·c) + ∑ b·d = ∑ b·c − ∑ a·d`. -/
theorem three_products {ι : Type*} [Fintype ι] (a b c d : ι → EReal)
    (ha : ∀ s, IsFin (a s)) (hb : ∀ s, IsFin (b s)) (hc : ∀ s, IsFin (c s)) (hd : ∀ s, IsFin (d s)) :
    ((∑ s, (a s + b s) * (c s - d s)) - ∑ s, a s * c s) + ∑ s, b s * d s
      = (∑ s, b s * c s) - ∑ s, a s * d s := by
  choose a' ha' using ha
  choose b' hb' using hb
  choose c' hc' using hc
  choose d' hd' using hd
  obtain rfl : a = fun s => ((a' s : ℝ) : EReal) := funext ha'
  obtain rfl : b = fun s => ((b' s : ℝ) : EReal) := funext hb'
  obtain rfl : c = fun s => ((c' s : ℝ) : EReal) := funext hc'
  obtain rfl : d = fun s => ((d' s : ℝ) : EReal) := funext hd'
  simp only [← EReal.coe_mul, ← EReal.coe_add, ← EReal.coe_sub, ← coe_sum]
  congr 1
  have e : ∀ s, (a' s + b' s) * (c' s - d' s) = a' s * c' s - a' s * d' s + b' s * c' s - b' s * d' s :=
    fun s => by ring
  simp only [e, Finset.sum_add_distrib, Finset.sum_sub_distrib]
  ring

/-- The weighted contraction `∑ s, (x[b,s,n] · w[b,s]) · y[b,s,m]`. -/
def wsum (x y : SData.Idx → EReal) (w : SWeight.Idx → EReal) (b : Fin 32) (n m : Fin 256) : EReal :=
  ∑ s : Fin 128, (x (ix3 b s n) * w (ix2 b s)) * y (ix3 b s m)

/-- The mixed contraction of the three-product form: `∑ s, (r·w + im·w)[b,s,n] · (r − im)[b,s,m]`. -/
def wsumMixed (r im : SData.Idx → EReal) (w : SWeight.Idx → EReal) (b : Fin 32) (n m : Fin 256) : EReal :=
  ∑ s : Fin 128, (r (ix3 b s n) * w (ix2 b s) + im (ix3 b s n) * w (ix2 b s)) * (r (ix3 b s m) - im (ix3 b s m))

/-- The real output: `⟨r, r⟩ + ⟨im, im⟩`. -/
def outRe (r im : SData.Idx → EReal) (w : SWeight.Idx → EReal) : SOut.Idx → EReal :=
  fun i => wsum r r w (i 0) (i 1) (i 2) + wsum im im w (i 0) (i 1) (i 2)

/-- The imaginary output: `⟨im, r⟩ − ⟨r, im⟩`. -/
def outIm (r im : SData.Idx → EReal) (w : SWeight.Idx → EReal) : SOut.Idx → EReal :=
  fun i => wsum im r w (i 0) (i 1) (i 2) - wsum r im w (i 0) (i 1) (i 2)

/-- The imaginary output reached with three contractions: the mixed one, minus `⟨r, r⟩`, plus `⟨im, im⟩`. -/
def outImThree (r im : SData.Idx → EReal) (w : SWeight.Idx → EReal) : SOut.Idx → EReal :=
  fun i => (wsumMixed r im w (i 0) (i 1) (i 2) - wsum r r w (i 0) (i 1) (i 2)) + wsum im im w (i 0) (i 1) (i 2)

/-- On finite arrays the three-contraction form is the imaginary output. -/
theorem outImThree_eq (r im : SData.Idx → EReal) (w : SWeight.Idx → EReal)
    (hr : ∀ j, IsFin (r j)) (hi : ∀ j, IsFin (im j)) (hw : ∀ j, IsFin (w j)) :
    outImThree r im w = outIm r im w := by
  funext i
  unfold outImThree outIm wsumMixed wsum
  exact three_products
    (fun s : Fin 128 => r (ix3 (i 0) s (i 1)) * w (ix2 (i 0) s)) (fun s => im (ix3 (i 0) s (i 1)) * w (ix2 (i 0) s))
    (fun s => r (ix3 (i 0) s (i 2))) (fun s => im (ix3 (i 0) s (i 2)))
    (fun s => (hr _).mul (hw _)) (fun s => (hi _).mul (hw _)) (fun s => hr _) (fun s => hi _)

end Cert.Mixture

end
-- ==== Proof.RefValue.lean ====
/-
  The reference computes the weighted mixture: its two results, read one host operation at a time, are
  `outRe` and `outIm` of the three argument arrays.

  The reference broadcasts the weights along the column axis (so the factor at `[b,s,n]` is `w[b,s]`), multiplies
  each data array by them, and contracts over the sequence axis: the left factor of a contraction at output
  index `[b,n,m]` and position `s` sits at `[b,s,n]`, the right factor at `[b,s,m]`.
-/
import proofs.«129453_j71313636983193_2_alg».proof.Proof.Gen.ReferenceIdeal.Read
import proofs.«129453_j71313636983193_2_alg».proof.Proof.Spec

noncomputable section

open Idealize.ShloMosaic Idealize.ShloMosaic.ValueIdx
open scoped BigOperators

namespace Cert.Mixture.Ref

open Cert.ReferenceIdeal Cert.ReferenceIdeal.Read Cert.Mixture

/-- The left factor of a contraction at output `[b,n,m]`, position `s`, sits at `[b,s,n]`. -/
theorem left_at (b : Fin 32) (n m : Fin 256) (s : Fin 128) : lidx_main_v6 (ix3 b n m) s = ix3 b s n :=
  funext fun a => Fin.ext (by match a with | ⟨0, _⟩ => rfl | ⟨1, _⟩ => rfl | ⟨2, _⟩ => rfl)

/-- The right factor of a contraction at output `[b,n,m]`, position `s`, sits at `[b,s,m]`. -/
theorem right_at (b : Fin 32) (n m : Fin 256) (s : Fin 128) : ridx_main_v6 (ix3 b n m) s = ix3 b s m :=
  funext fun a => Fin.ext (by match a with | ⟨0, _⟩ => rfl | ⟨1, _⟩ => rfl | ⟨2, _⟩ => rfl)

/-- The weight broadcast along columns, read at `[b,s,n]`, is the weight at `[b,s]`. -/
theorem weight_at (b : Fin 32) (s : Fin 128) (n : Fin 256) : idx_main_v0 (idx_main_v1 (ix3 b s n)) = ix2 b s :=
  funext fun a => Fin.ext (by match a with | ⟨0, _⟩ => rfl | ⟨1, _⟩ => rfl)

/-- A data array scaled by the broadcast weights, at `[b,s,n]`. -/
theorem scaled_at (x : SData.Idx → EReal) (w : SWeight.Idx → EReal) (b : Fin 32) (s : Fin 128) (n : Fin 256) :
    val_main_v2 (F := Ideal) x w (ix3 b s n) = x (ix3 b s n) * w (ix2 b s) := by
  rw [val_main_v2_apply, val_main_v1_apply, val_main_v0_apply, weight_at]
  rfl

/-- The second scaled array is the same function of its data array. -/
theorem scaled_eq (x : SData.Idx → EReal) (w : SWeight.Idx → EReal) :
    val_main_v5 (F := Ideal) x w = val_main_v2 (F := Ideal) x w := rfl

/-- Each of the four contractions is a weighted contraction `wsum`. -/
theorem contraction_at (x y : SData.Idx → EReal) (w : SWeight.Idx → EReal) (b : Fin 32) (n m : Fin 256) :
    (∑ s : Fin 128, val_main_v2 (F := Ideal) x w (lidx_main_v6 (ix3 b n m) s) * y (ridx_main_v6 (ix3 b n m) s))
      = wsum x y w b n m := by
  unfold wsum
  refine Finset.sum_congr rfl fun s _ => ?_
  rw [left_at, right_at, scaled_at]

/-- The reference's first result is the real output. -/
theorem result_re (r im : SData.Idx → EReal) (w : SWeight.Idx → EReal) :
    val_main_v8 (F := Ideal) r im w = outRe r im w := by
  funext i
  obtain ⟨b, n, m, rfl⟩ : ∃ (b : Fin 32) (n m : Fin 256), i = ix3 b n m := ⟨i 0, i 1, i 2, eq_ix3 i⟩
  rw [val_main_v8_apply, val_main_v6_apply, val_main_v7_apply, scaled_eq]
  show (∑ s : Fin 128, val_main_v2 (F := Ideal) r w (lidx_main_v6 (ix3 b n m) s) * r (ridx_main_v6 (ix3 b n m) s))
      + (∑ s : Fin 128, val_main_v2 (F := Ideal) im w (lidx_main_v6 (ix3 b n m) s) * im (ridx_main_v6 (ix3 b n m) s))
      = wsum r r w b n m + wsum im im w b n m
  rw [contraction_at, contraction_at]

/-- The reference's second result is the imaginary output. -/
theorem result_im (r im : SData.Idx → EReal) (w : SWeight.Idx → EReal) :
    val_main_v11 (F := Ideal) r im w = outIm r im w := by
  funext i
  obtain ⟨b, n, m, rfl⟩ : ∃ (b : Fin 32) (n m : Fin 256), i = ix3 b n m := ⟨i 0, i 1, i 2, eq_ix3 i⟩
  rw [val_main_v11_apply, val_main_v9_apply, val_main_v10_apply, scaled_eq]
  show (∑ s : Fin 128, val_main_v2 (F := Ideal) im w (lidx_main_v6 (ix3 b n m) s) * r (ridx_main_v6 (ix3 b n m) s))
      - (∑ s : Fin 128, val_main_v2 (F := Ideal) r w (lidx_main_v6 (ix3 b n m) s) * im (ridx_main_v6 (ix3 b n m) s))
      = wsum im r w b n m - wsum r im w b n m
  rw [contraction_at, contraction_at]

end Cert.Mixture.Ref

end
-- ==== Proof.BodyValue.lean ====
/-
  What the kernel body stores for one block of eight batches, index by index.

  The body holds a block of each data array (`x0`, `x1 : [8, 128, 256]`) and of the weights as a column
  (`x2 : [8, 128, 1]`). It scales both data blocks by the weights broadcast along columns, forms three matrix
  products that contract the sequence axis (`∑ s, L[b,s,n] · R[b,s,m]`, each into a zero accumulator), and stores
  `P1 + P2` and `(P3 − P1) + P2`, where `P1 = (x0·w)ᵀx0`, `P2 = (x1·w)ᵀx1`, `P3 = (x0·w + x1·w)ᵀ(x0 − x1)`.
  If the block's entries are the arrays' entries at batches `q b`, the first store is the real output at
  `[q b, n, m]` and the second is the three-contraction form of the imaginary output there.
-/
import proofs.«129453_j71313636983193_2_alg».proof.Proof.Gen.KernelIdeal.Skeleton
import proofs.«129453_j71313636983193_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.Mixture.Body

open Cert.KernelIdeal Cert.KernelIdeal.Gen Cert.Mixture

/-- The block product's dimension numbers: batch axis 0, contracted axis 1 on both sides, free axis 2 on both. -/
abbrev D := dot_S8x128x256_S8x128x256_S8x256x256_1_1_2_2_0_0

theorem lhs_batch (i : S8x256x256.Idx) (k : D.contr.Idx) : (D.lhsIdx i k 0).val = (i 0).val := by
  unfold DotDims.lhsIdx
  rw [dif_pos (show (0 : Fin S8x128x256.rank) ∈ D.lhsBatch by decide)]
  rfl
theorem lhs_contr (i : S8x256x256.Idx) (k : D.contr.Idx) : (D.lhsIdx i k 1).val = (k ⟨0, by decide⟩).val :=
  D.lhsIdx_val_of_single rfl i k
theorem lhs_free (i : S8x256x256.Idx) (k : D.contr.Idx) : (D.lhsIdx i k 2).val = (i 1).val := by
  unfold DotDims.lhsIdx
  rw [dif_neg (show ¬(2 : Fin S8x128x256.rank) ∈ D.lhsBatch by decide),
    dif_pos (show (2 : Fin S8x128x256.rank) ∈ D.lhsNonContracting by decide)]
  rfl
theorem rhs_batch (i : S8x256x256.Idx) (k : D.contr.Idx) : (D.rhsIdx i k 0).val = (i 0).val := by
  unfold DotDims.rhsIdx
  rw [dif_pos (show (0 : Fin S8x128x256.rank) ∈ D.rhsBatch by decide)]
  rfl
theorem rhs_contr (i : S8x256x256.Idx) (k : D.contr.Idx) : (D.rhsIdx i k 1).val = (k ⟨0, by decide⟩).val :=
  D.rhsIdx_val_of_single rfl i k
theorem rhs_free (i : S8x256x256.Idx) (k : D.contr.Idx) : (D.rhsIdx i k 2).val = (i 2).val := by
  unfold DotDims.rhsIdx
  rw [dif_neg (show ¬(2 : Fin S8x128x256.rank) ∈ D.rhsBatch by decide),
    dif_pos (show (2 : Fin S8x128x256.rank) ∈ D.rhsNonContracting by decide)]
  rfl

/-- A block product into the zero accumulator, at `[b,n,m]`: `∑ s, L[b,s,n] · R[b,s,m]`. -/
theorem product_at (l r : FVec Ideal S8x128x256 .f32) (b : Fin 8) (n m : Fin 256) :
    FloatOps.matmul D (some .fp32) l r (constant (F := Ideal) S8x256x256 .f32 0x00000000#32) (ix3 b n m)
      = ∑ s : Fin 128, l (ix3 b s n) * r (ix3 b s m) := by
  rw [Ideal.matmul_constant_zero_apply, ← Equiv.sum_comp (contrEquiv1 D 128 rfl rfl).symm]
  refine Finset.sum_congr rfl fun s _ => ?_
  have hs := contrEquiv1_symm_val D 128 rfl rfl s
  have el : D.lhsIdx (ix3 b n m) ((contrEquiv1 D 128 rfl rfl).symm s) = ix3 b s n := funext fun a => Fin.ext (by
    match a with
    | ⟨0, _⟩ => exact lhs_batch _ _
    | ⟨1, _⟩ => exact (lhs_contr _ _).trans hs
    | ⟨2, _⟩ => exact lhs_free _ _)
  have er : D.rhsIdx (ix3 b n m) ((contrEquiv1 D 128 rfl rfl).symm s) = ix3 b s m := funext fun a => Fin.ext (by
    match a with
    | ⟨0, _⟩ => exact rhs_batch _ _
    | ⟨1, _⟩ => exact (rhs_contr _ _).trans hs
    | ⟨2, _⟩ => exact rhs_free _ _)
  rw [el, er]

/-- The weight column broadcast along the 256 columns, at `[b,s,n]`, is the weight at `[b,s,0]`. -/
theorem weight_at (x2 : FVec Ideal S8x128x1 .f32) (b : Fin 8) (s : Fin 128) (n : Fin 256) :
    broadcastTo S8x128x256 x2 broadcasts_S8x128x1_S8x128x256 (ix3 b s n) = x2 (ix3 b s (0 : Fin 1)) :=
  broadcastTo_apply x2 broadcasts_S8x128x1_S8x128x256 (ix3 b s n) (ix3 b s (0 : Fin 1)) (fun a => by
    match a with
    | ⟨0, _⟩ => show b.val = if (8 : Nat) = 1 then 0 else b.val; rw [if_neg (by decide)]
    | ⟨1, _⟩ => show s.val = if (128 : Nat) = 1 then 0 else s.val; rw [if_neg (by decide)]
    | ⟨2, _⟩ => show 0 = if (1 : Nat) = 1 then 0 else n.val; rw [if_pos rfl])

/-- A data block scaled by the weights, at `[b,s,n]`. -/
theorem scaled_at (x : FVec Ideal S8x128x256 .f32) (x2 : FVec Ideal S8x128x1 .f32) (b : Fin 8) (s : Fin 128) (n : Fin 256) :
    k0_pay2 (F := Ideal) x x2 (ix3 b s n) = x (ix3 b s n) * x2 (ix3 b s (0 : Fin 1)) := by
  show FloatOps.mulf (x (ix3 b s n))
    (broadcastTo S8x128x256 (shapeCast S8x128x1 x2 shapeCasts_S8x128x1_S8x128x1) broadcasts_S8x128x1_S8x128x256 (ix3 b s n)) = _
  rw [shapeCast_self, weight_at]
  rfl

/-- The second scaled block is the same function of its data block. -/
theorem scaled_eq (x : FVec Ideal S8x128x256 .f32) (x2 : FVec Ideal S8x128x1 .f32) : k0_pay3 (F := Ideal) x x2 = k0_pay2 (F := Ideal) x x2 := rfl

/-- The first store, at `[b,n,m]`: `P1 + P2`. -/
theorem store_re_at (x0 x1 : FVec Ideal S8x128x256 .f32) (x2 : FVec Ideal S8x128x1 .f32) (b : Fin 8) (n m : Fin 256) :
    k0_pay6 (F := Ideal) x0 x1 x2 (ix3 b n m)
      = (∑ s : Fin 128, (x0 (ix3 b s n) * x2 (ix3 b s (0 : Fin 1))) * x0 (ix3 b s m))
        + ∑ s : Fin 128, (x1 (ix3 b s n) * x2 (ix3 b s (0 : Fin 1))) * x1 (ix3 b s m) := by
  show FloatOps.addf
      (FloatOps.matmul D (some .fp32) (k0_pay2 (F := Ideal) x0 x2) x0 (constant (F := Ideal) S8x256x256 .f32 0x00000000#32) (ix3 b n m))
      (FloatOps.matmul D (some .fp32) (k0_pay2 (F := Ideal) x1 x2) x1 (constant (F := Ideal) S8x256x256 .f32 0x00000000#32) (ix3 b n m)) = _
  rw [product_at, product_at]
  simp only [scaled_at]
  rfl

/-- The second store, at `[b,n,m]`: `(P3 − P1) + P2`. -/
theorem store_im_at (x0 x1 : FVec Ideal S8x128x256 .f32) (x2 : FVec Ideal S8x128x1 .f32) (b : Fin 8) (n m : Fin 256) :
    k0_pay7 (F := Ideal) x0 x1 x2 (ix3 b n m)
      = ((∑ s : Fin 128, (x0 (ix3 b s n) * x2 (ix3 b s (0 : Fin 1)) + x1 (ix3 b s n) * x2 (ix3 b s (0 : Fin 1)))
            * (x0 (ix3 b s m) - x1 (ix3 b s m)))
          - ∑ s : Fin 128, (x0 (ix3 b s n) * x2 (ix3 b s (0 : Fin 1))) * x0 (ix3 b s m))
        + ∑ s : Fin 128, (x1 (ix3 b s n) * x2 (ix3 b s (0 : Fin 1))) * x1 (ix3 b s m) := by
  show FloatOps.addf (FloatOps.subf
      (FloatOps.matmul D (some .fp32) (addf (k0_pay2 (F := Ideal) x0 x2) (k0_pay2 (F := Ideal) x1 x2)) (subf x0 x1)
        (constant (F := Ideal) S8x256x256 .f32 0x00000000#32) (ix3 b n m))
      (FloatOps.matmul D (some .fp32) (k0_pay2 (F := Ideal) x0 x2) x0 (constant (F := Ideal) S8x256x256 .f32 0x00000000#32) (ix3 b n m)))
      (FloatOps.matmul D (some .fp32) (k0_pay2 (F := Ideal) x1 x2) x1 (constant (F := Ideal) S8x256x256 .f32 0x00000000#32) (ix3 b n m)) = _
  rw [product_at, product_at, product_at]
  simp only [addf_apply, subf_apply, scaled_at]
  rfl

/-- A block whose entries are the arrays' entries at batches `q b` stores the real output at `[q b, n, m]`. -/
theorem block_re (x0 x1 : FVec Ideal S8x128x256 .f32) (x2 : FVec Ideal S8x128x1 .f32)
    (r im : SData.Idx → EReal) (w : SWeight.Idx → EReal) (q : Fin 8 → Fin 32)
    (h0 : ∀ (b : Fin 8) (s : Fin 128) (n : Fin 256), x0 (ix3 b s n) = r (ix3 (q b) s n))
    (h1 : ∀ (b : Fin 8) (s : Fin 128) (n : Fin 256), x1 (ix3 b s n) = im (ix3 (q b) s n))
    (h2 : ∀ (b : Fin 8) (s : Fin 128), x2 (ix3 b s (0 : Fin 1)) = w (ix2 (q b) s))
    (b : Fin 8) (n m : Fin 256) :
    k0_pay6 (F := Ideal) x0 x1 x2 (ix3 b n m) = outRe r im w (ix3 (q b) n m) := by
  rw [store_re_at]
  simp only [h0, h1, h2]
  rfl

/-- The same block's second store is the three-contraction form of the imaginary output at `[q b, n, m]`. -/
theorem block_im (x0 x1 : FVec Ideal S8x128x256 .f32) (x2 : FVec Ideal S8x128x1 .f32)
    (r im : SData.Idx → EReal) (w : SWeight.Idx → EReal) (q : Fin 8 → Fin 32)
    (h0 : ∀ (b : Fin 8) (s : Fin 128) (n : Fin 256), x0 (ix3 b s n) = r (ix3 (q b) s n))
    (h1 : ∀ (b : Fin 8) (s : Fin 128) (n : Fin 256), x1 (ix3 b s n) = im (ix3 (q b) s n))
    (h2 : ∀ (b : Fin 8) (s : Fin 128), x2 (ix3 b s (0 : Fin 1)) = w (ix2 (q b) s))
    (b : Fin 8) (n m : Fin 256) :
    k0_pay7 (F := Ideal) x0 x1 x2 (ix3 b n m) = outImThree r im w (ix3 (q b) n m) := by
  rw [store_im_at]
  simp only [h0, h1, h2]
  rfl

end Cert.Mixture.Body

end
-- ==== Proof.ArrayValue.lean ====
/-
  From blocks to arrays: what the kernel's two result arrays hold after the run, as functions of the arguments.

  The grid has four points; point `t` works on batches `8t … 8t+7`: every window's block index is `(t, 0, 0)`.
  The weights reach the region as a column array `[32, 128, 1]` (a reshape of the `[32, 128]` argument, which
  keeps row-major positions, so the column entry at `[B, s, 0]` is the weight at `[B, s]`). Hence the blocks
  point `t` holds are the arrays' entries at batches `8t + b`, what it writes back is block `t` of the real
  output and of the three-contraction form of the imaginary output, and the four blocks tile each result array.
-/
import proofs.«129453_j71313636983193_2_alg».proof.Proof.Gen.KernelIdeal.Value
import proofs.«129453_j71313636983193_2_alg».proof.Proof.BodyValue
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.Mixture.Arrays

open Cert.KernelIdeal Cert.KernelIdeal.Gen Cert.KernelIdeal.Value Cert.Mixture

variable (m : (ℓ : Loc nD τ sig) → Buf (Elt Ideal) ℓ) (ρ : Dev nD → PrngReg)

theorem zero_offset : (![0, 0, 0] : Fin 3 → Nat) = fun _ => 0 := funext fun a => by fin_cases a <;> rfl

/-- Every window's block index at point `t` is `(t, 0, 0)` (decided over the four points). -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

theorem point_lt (t : Fin cfg0.N) : t.val < 4 := by
  have h : t.val < cfg0.N := t.isLt
  have hN : cfg0.N = 4 := N_0
  omega

/-- The batch that row `b` of point `t`'s blocks holds. -/
def batch (t : Fin cfg0.N) (b : Fin 8) : Fin 32 := ⟨8 * t.val + b.val, by have := point_lt t; omega⟩

theorem batch_val (t : Fin cfg0.N) (b : Fin 8) : (batch t b).val = 8 * t.val + b.val := rfl

/-- The first data block at point `t` holds the first argument at batches `8t + b`. -/
theorem data0_at (c : Dev nD) (t : Fin cfg0.N) (b : Fin 8) (s : Fin 128) (n : Fin 256) :
    (iblk m c 0 t : FVec Ideal S8x128x256 .f32) (ix3 b s n)
      = (m ((c : Thread nD τ).loc main_arg0) : SData.Idx → EReal) (ix3 (batch t b) s n) := by
  obtain ⟨⟨e0, e1, e2⟩, -⟩ := block_index t
  unfold iblk
  rw [View.read_apply]
  show V m c main_arg0 _ = _
  rw [V_main_arg0]
  refine congrArg (m ((c : Thread nD τ).loc main_arg0) : SData.Idx → EReal) (funext fun a => Fin.ext ?_)
  match a with
  | ⟨0, _⟩ => show win0_0.index t (0 : Fin 3) * 8 + 1 * b.val = 8 * t.val + b.val; rw [e0]; omega
  | ⟨1, _⟩ => show win0_0.index t (1 : Fin 3) * 128 + 1 * s.val = s.val; rw [e1]; omega
  | ⟨2, _⟩ => show win0_0.index t (2 : Fin 3) * 256 + 1 * n.val = n.val; rw [e2]; omega

/-- The second data block at point `t` holds the second argument at batches `8t + b`. -/
theorem data1_at (c : Dev nD) (t : Fin cfg0.N) (b : Fin 8) (s : Fin 128) (n : Fin 256) :
    (iblk m c 1 t : FVec Ideal S8x128x256 .f32) (ix3 b s n)
      = (m ((c : Thread nD τ).loc main_arg1) : SData.Idx → EReal) (ix3 (batch t b) s n) := by
  obtain ⟨-, ⟨e0, e1, e2⟩, -⟩ := block_index t
  unfold iblk
  rw [View.read_apply]
  show V m c main_arg1 _ = _
  rw [V_main_arg1]
  refine congrArg (m ((c : Thread nD τ).loc main_arg1) : SData.Idx → EReal) (funext fun a => Fin.ext ?_)
  match a with
  | ⟨0, _⟩ => show win0_1.index t (0 : Fin 3) * 8 + 1 * b.val = 8 * t.val + b.val; rw [e0]; omega
  | ⟨1, _⟩ => show win0_1.index t (1 : Fin 3) * 128 + 1 * s.val = s.val; rw [e1]; omega
  | ⟨2, _⟩ => show win0_1.index t (2 : Fin 3) * 256 + 1 * n.val = n.val; rw [e2]; omega

/-- The weights as the region finds them: the `[32, 128]` argument laid out as a `[32, 128, 1]` column array. -/
theorem weights_column (c : Dev nD) :
    (V m c main_v0 : S32x128x1.Idx → EReal)
      = shapeCast S32x128x1 (m ((c : Thread nD τ).loc main_arg2) : S32x128.Idx → EReal) shapeCasts_S32x128_S32x128x1 := by
  dsimp only [Gen.V, Gen.hostOps0]
  after_results
  rfl

/-- The column array at `[B, s, 0]` is the weight at `[B, s]`: both sit at row-major position `128·B + s`. -/
theorem column_at (w : S32x128.Idx → EReal) (B : Fin 32) (s : Fin 128) :
    shapeCast S32x128x1 w shapeCasts_S32x128_S32x128x1 (ix3 B s (0 : Fin 1)) = w (ix2 B s) :=
  shapeCast_apply w shapeCasts_S32x128_S32x128x1 (ix3 B s (0 : Fin 1)) (ix2 B s) (by
    rw [Shape.rowMajor_val_two, Shape.rowMajor_val_three]
    show B.val * 128 + s.val = (B.val * 128 + s.val) * 1 + 0
    omega)

/-- The weight block at point `t` holds the weights at batches `8t + b`. -/
theorem weights_at (c : Dev nD) (t : Fin cfg0.N) (b : Fin 8) (s : Fin 128) :
    (iblk m c 2 t : FVec Ideal S8x128x1 .f32) (ix3 b s (0 : Fin 1))
      = (m ((c : Thread nD τ).loc main_arg2) : SWeight.Idx → EReal) (ix2 (batch t b) s) := by
  obtain ⟨-, -, ⟨e0, e1, e2⟩, -⟩ := block_index t
  unfold iblk
  rw [View.read_apply]
  show (V m c main_v0 : S32x128x1.Idx → EReal) _ = _
  rw [weights_column]
  refine (congrArg (shapeCast S32x128x1 (m ((c : Thread nD τ).loc main_arg2) : S32x128.Idx → EReal) shapeCasts_S32x128_S32x128x1)
    (?_ : _ = ix3 (batch t b) s (0 : Fin 1))).trans (column_at _ (batch t b) s)
  funext a
  apply Fin.ext
  match a with
  | ⟨0, _⟩ => show win0_2.index t (0 : Fin 3) * 8 + 1 * b.val = 8 * t.val + b.val; rw [e0]; omega
  | ⟨1, _⟩ => show win0_2.index t (1 : Fin 3) * 128 + 1 * s.val = s.val; rw [e1]; omega
  | ⟨2, _⟩ => show win0_2.index t (2 : Fin 3) * 1 + 1 * 0 = 0; rw [e2]

/-- An output block's element `[b, n, k]` at point `t` sits in the array at batch `8t + b`, same row and column. -/
theorem out_coords (t : Fin cfg0.N) (b : Fin 8) (n k : Fin 256) (i : SOut.Idx)
    (h0 : (i 0).val = t.val * 8 + 1 * b.val) (h1 : (i 1).val = 0 * 256 + 1 * n.val)
    (h2 : (i 2).val = 0 * 256 + 1 * k.val) : i = ix3 (batch t b) n k := by
  funext a
  apply Fin.ext
  match a with
  | ⟨0, _⟩ => show (i 0).val = 8 * t.val + b.val; omega
  | ⟨1, _⟩ => show (i 1).val = n.val; omega
  | ⟨2, _⟩ => show (i 2).val = k.val; omega

/-- What point `t` writes back to the first result is block `t` of the real output. -/
theorem flushed_re (c : Dev nD) (t : Fin cfg0.N) :
    (dats m 0 c).flushed 3 t = ((cfg0.win 3).blk t).view.read (Elt Ideal)
      (outRe (m ((c : Thread nD τ).loc main_arg0)) (m ((c : Thread nD τ).loc main_arg1)) (m ((c : Thread nD τ).loc main_arg2))) := by
  obtain ⟨-, -, -, ⟨e0, e1, e2⟩, -⟩ := block_index t
  rw [flushed3]
  unfold out0_3
  rw [View.canon_unit_zero zero_offset]
  simp only [View.ld_unit_zero (S := S8x128x256) zero_offset, View.ld_unit_zero (S := S8x128x1) zero_offset]
  show (fun y : S8x256x256.Idx => k0_pay6 (F := Ideal) (iblk m c 0 t) (iblk m c 1 t) (iblk m c 2 t) y)
    = fun y : S8x256x256.Idx => outRe (m ((c : Thread nD τ).loc main_arg0)) (m ((c : Thread nD τ).loc main_arg1)) (m ((c : Thread nD τ).loc main_arg2))
        (((cfg0.win 3).blk t).view.emb y)
  funext y
  obtain ⟨b, n, k, rfl⟩ : ∃ (b : Fin 8) (n k : Fin 256), y = ix3 b n k := ⟨y 0, y 1, y 2, eq_ix3 y⟩
  show k0_pay6 (F := Ideal) (iblk m c 0 t) (iblk m c 1 t) (iblk m c 2 t) (ix3 b n k)
    = outRe (m ((c : Thread nD τ).loc main_arg0)) (m ((c : Thread nD τ).loc main_arg1)) (m ((c : Thread nD τ).loc main_arg2))
        (((cfg0.win 3).blk t).view.emb (ix3 b n k))
  rw [out_coords t b n k (((cfg0.win 3).blk t).view.emb (ix3 b n k))
    (show win0_3.index t (0 : Fin 3) * 8 + 1 * b.val = t.val * 8 + 1 * b.val by rw [e0])
    (show win0_3.index t (1 : Fin 3) * 256 + 1 * n.val = 0 * 256 + 1 * n.val by rw [e1])
    (show win0_3.index t (2 : Fin 3) * 256 + 1 * k.val = 0 * 256 + 1 * k.val by rw [e2])]
  exact Body.block_re (iblk m c 0 t) (iblk m c 1 t) (iblk m c 2 t)
    (m ((c : Thread nD τ).loc main_arg0)) (m ((c : Thread nD τ).loc main_arg1)) (m ((c : Thread nD τ).loc main_arg2))
    (batch t) (data0_at m c t) (data1_at m c t) (weights_at m c t) b n k

/-- What point `t` writes back to the second result is block `t` of the three-contraction imaginary output. -/
theorem flushed_im (c : Dev nD) (t : Fin cfg0.N) :
    (dats m 0 c).flushed 4 t = ((cfg0.win 4).blk t).view.read (Elt Ideal)
      (outImThree (m ((c : Thread nD τ).loc main_arg0)) (m ((c : Thread nD τ).loc main_arg1)) (m ((c : Thread nD τ).loc main_arg2))) := by
  obtain ⟨-, -, -, -, ⟨e0, e1, e2⟩⟩ := block_index t
  rw [flushed4]
  unfold out0_4
  rw [View.canon_unit_zero zero_offset]
  simp only [View.ld_unit_zero (S := S8x128x256) zero_offset, View.ld_unit_zero (S := S8x128x1) zero_offset]
  show (fun y : S8x256x256.Idx => k0_pay7 (F := Ideal) (iblk m c 0 t) (iblk m c 1 t) (iblk m c 2 t) y)
    = fun y : S8x256x256.Idx => outImThree (m ((c : Thread nD τ).loc main_arg0)) (m ((c : Thread nD τ).loc main_arg1)) (m ((c : Thread nD τ).loc main_arg2))
        (((cfg0.win 4).blk t).view.emb y)
  funext y
  obtain ⟨b, n, k, rfl⟩ : ∃ (b : Fin 8) (n k : Fin 256), y = ix3 b n k := ⟨y 0, y 1, y 2, eq_ix3 y⟩
  show k0_pay7 (F := Ideal) (iblk m c 0 t) (iblk m c 1 t) (iblk m c 2 t) (ix3 b n k)
    = outImThree (m ((c : Thread nD τ).loc main_arg0)) (m ((c : Thread nD τ).loc main_arg1)) (m ((c : Thread nD τ).loc main_arg2))
        (((cfg0.win 4).blk t).view.emb (ix3 b n k))
  rw [out_coords t b n k (((cfg0.win 4).blk t).view.emb (ix3 b n k))
    (show win0_4.index t (0 : Fin 3) * 8 + 1 * b.val = t.val * 8 + 1 * b.val by rw [e0])
    (show win0_4.index t (1 : Fin 3) * 256 + 1 * n.val = 0 * 256 + 1 * n.val by rw [e1])
    (show win0_4.index t (2 : Fin 3) * 256 + 1 * k.val = 0 * 256 + 1 * k.val by rw [e2])]
  exact Body.block_im (iblk m c 0 t) (iblk m c 1 t) (iblk m c 2 t)
    (m ((c : Thread nD τ).loc main_arg0)) (m ((c : Thread nD τ).loc main_arg1)) (m ((c : Thread nD τ).loc main_arg2))
    (batch t) (data0_at m c t) (data1_at m c t) (weights_at m c t) b n k

/-- An index of the first result array is in point `t`'s block iff each coordinate is in the block's range. -/
theorem mem_block_re (t : Fin cfg0.N) (i : S32x256x256.Idx) :
    i ∈ ((cfg0.win 3).blk t).view.set ↔ ∀ a : Fin 3, win0_3.index t a * S8x256x256.size a ≤ (i a).val
      ∧ (i a).val < win0_3.index t a * S8x256x256.size a + S8x256x256.size a := by
  show i ∈ ((View.whole main_v1_0).slice (win0_3.rect t)).set ↔ _
  rw [View.set_slice_whole, Rect.mem_set_unit]
  exact Iff.rfl

/-- The same for the second result array. -/
theorem mem_block_im (t : Fin cfg0.N) (i : S32x256x256.Idx) :
    i ∈ ((cfg0.win 4).blk t).view.set ↔ ∀ a : Fin 3, win0_4.index t a * S8x256x256.size a ≤ (i a).val
      ∧ (i a).val < win0_4.index t a * S8x256x256.size a + S8x256x256.size a := by
  show i ∈ ((View.whole main_v1_1).slice (win0_4.rect t)).set ↔ _
  rw [View.set_slice_whole, Rect.mem_set_unit]
  exact Iff.rfl

/-- The point whose blocks hold batch `B`: `B / 8`. -/
def pointOf (i : S32x256x256.Idx) : Fin cfg0.N :=
  ⟨(i 0).val / 8, by rw [show cfg0.N = 4 from N_0]; have h : (i 0).val < 32 := (i 0).isLt; omega⟩

theorem pointOf_val (i : S32x256x256.Idx) : (pointOf i).val = (i 0).val / 8 := rfl

/-- The four blocks tile the first result array. -/
theorem cover_re (i : S32x256x256.Idx) :
    ∃ t : Fin cfg0.N, (cfg0.win 3).flush t = true ∧ i ∈ ((cfg0.win 3).blk t).view.set := by
  have h0 : (i 0).val < 32 := (i 0).isLt
  have h1 : (i 1).val < 256 := (i 1).isLt
  have h2 : (i 2).val < 256 := (i 2).isLt
  obtain ⟨-, -, -, ⟨e0, e1, e2⟩, -⟩ := block_index (pointOf i)
  refine ⟨pointOf i, flush0_3 (pointOf i), ?_⟩
  rw [mem_block_re]
  intro a
  match a with
  | ⟨0, _⟩ =>
    show win0_3.index (pointOf i) (0 : Fin 3) * 8 ≤ (i 0).val ∧ (i 0).val < win0_3.index (pointOf i) (0 : Fin 3) * 8 + 8
    rw [e0, pointOf_val]; omega
  | ⟨1, _⟩ =>
    show win0_3.index (pointOf i) (1 : Fin 3) * 256 ≤ (i 1).val ∧ (i 1).val < win0_3.index (pointOf i) (1 : Fin 3) * 256 + 256
    rw [e1]; omega
  | ⟨2, _⟩ =>
    show win0_3.index (pointOf i) (2 : Fin 3) * 256 ≤ (i 2).val ∧ (i 2).val < win0_3.index (pointOf i) (2 : Fin 3) * 256 + 256
    rw [e2]; omega

/-- The four blocks tile the second result array. -/
theorem cover_im (i : S32x256x256.Idx) :
    ∃ t : Fin cfg0.N, (cfg0.win 4).flush t = true ∧ i ∈ ((cfg0.win 4).blk t).view.set := by
  have h0 : (i 0).val < 32 := (i 0).isLt
  have h1 : (i 1).val < 256 := (i 1).isLt
  have h2 : (i 2).val < 256 := (i 2).isLt
  obtain ⟨-, -, -, -, ⟨e0, e1, e2⟩⟩ := block_index (pointOf i)
  refine ⟨pointOf i, flush0_4 (pointOf i), ?_⟩
  rw [mem_block_im]
  intro a
  match a with
  | ⟨0, _⟩ =>
    show win0_4.index (pointOf i) (0 : Fin 3) * 8 ≤ (i 0).val ∧ (i 0).val < win0_4.index (pointOf i) (0 : Fin 3) * 8 + 8
    rw [e0, pointOf_val]; omega
  | ⟨1, _⟩ =>
    show win0_4.index (pointOf i) (1 : Fin 3) * 256 ≤ (i 1).val ∧ (i 1).val < win0_4.index (pointOf i) (1 : Fin 3) * 256 + 256
    rw [e1]; omega
  | ⟨2, _⟩ =>
    show win0_4.index (pointOf i) (2 : Fin 3) * 256 ≤ (i 2).val ∧ (i 2).val < win0_4.index (pointOf i) (2 : Fin 3) * 256 + 256
    rw [e2]; omega

/-- After the run the first result array is the real output of the arguments. -/
theorem final_re (c : Dev nD) : (dats m 0 c).arrAt 3 cfg0.N
    = outRe (m ((c : Thread nD τ).loc main_arg0)) (m ((c : Thread nD τ).loc main_arg1)) (m ((c : Thread nD τ).loc main_arg2)) :=
  (dats m 0 c).arrAt_eq_of_cover 3
    (outRe (m ((c : Thread nD τ).loc main_arg0)) (m ((c : Thread nD τ).loc main_arg1)) (m ((c : Thread nD τ).loc main_arg2)))
    (fun t _ => flushed_re m c t) cover_re

/-- After the run the second result array is the three-contraction imaginary output of the arguments. -/
theorem final_im (c : Dev nD) : (dats m 0 c).arrAt 4 cfg0.N
    = outImThree (m ((c : Thread nD τ).loc main_arg0)) (m ((c : Thread nD τ).loc main_arg1)) (m ((c : Thread nD τ).loc main_arg2)) :=
  (dats m 0 c).arrAt_eq_of_cover 4
    (outImThree (m ((c : Thread nD τ).loc main_arg0)) (m ((c : Thread nD τ).loc main_arg1)) (m ((c : Thread nD τ).loc main_arg2)))
    (fun t _ => flushed_im m c t) cover_im

/-- The kernel's run: both result arrays as functions of the arguments, the arguments unchanged. -/
theorem run : θ_run defs (onTc (τ := τ) (main (F := Ideal))) ⟨m, fun _ => 0, ρ⟩ fun r => ∀ c : Dev nD,
      r.2.mem ((c : Thread nD τ).loc main_v1_0)
        = outRe (m ((c : Thread nD τ).loc main_arg0)) (m ((c : Thread nD τ).loc main_arg1)) (m ((c : Thread nD τ).loc main_arg2))
      ∧ r.2.mem ((c : Thread nD τ).loc main_v1_1)
        = outImThree (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_re m c), (h c).2.1.trans (final_im m c), (h c).2.2⟩)
    (run_blocks m ρ)

end Cert.Mixture.Arrays

end
-- ==== Proof.Finite.lean ====
import proofs.«129453_j71313636983193_2_alg».proof.Proof.Gen.Pre_finite_inputs
import proofs.«129453_j71313636983193_2_alg».proof.Proof.LibERealMatmul
import Idealize.ShloMosaic.PureOps.Ideal
import Idealize.ShloMosaic.Lib.ReduceAll

/-!
# The precondition makes every input entry a real number

The precondition compares, entry by entry, the absolute value of each of the three input
arrays against `+∞` (the f32 pattern `0x7F800000`), takes the conjunction of all the
comparisons of each array, and then the conjunction of the three results.  Read over the
extended reals, an entry `x` with `max x (-x) < ⊤` is neither `⊤` nor `⊥`, hence the
coercion of a real number.
-/

noncomputable section

namespace Cert.Mixture.Finite

open Idealize.ShloMosaic Cert.LibERealMatmul

/-- The f32 pattern `0x7F800000` denotes `+∞`. -/
theorem ofBits_inf : Ideal.ofBits .f32 0x7F800000#32 = (⊤ : EReal) := by
  simp [Ideal.ofBits, Ideal.ieee]

/-- An extended real whose absolute value `max x (-x)` lies strictly below `⊤` is a real number:
`⊤` fails because `max ⊤ ⊥ = ⊤`, and `⊥` fails because `max ⊥ ⊤ = ⊤`. -/
theorem isFin_of_abs_lt_top (x : EReal) (h : max x (-x) < ⊤) : IsFin x := by
  induction x using EReal.rec with
  | bot => simp at h
  | coe r => exact ⟨r, rfl⟩
  | top => simp at h

/-- The scalar fact: if the ordered comparison `|x| < +∞` answers `1`, then `x` is a real number. -/
theorem isFin_of_cmp (x : EReal)
    (h : Ideal.cmp .olt (max x (-x)) (Ideal.ofBits .f32 0x7F800000#32) = 1#1) : IsFin x := by
  rw [ofBits_inf] at h
  apply isFin_of_abs_lt_top
  by_contra hn
  simp [Ideal.cmp, hn] at h

/-- The scalar shape has one index. -/
instance : Subsingleton Cert.Pre_finite_inputs.S_.Idx := ⟨fun a b => funext fun d => d.elim0⟩

/-- One array: if the conjunction over all entries of the comparisons `|x j| < +∞` is `1`, then
every entry of `x` is a real number. -/
theorem all_isFin {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (j0 : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j0 = 1#1) :
    ∀ j, IsFin (x j) := by
  intro j
  have hj := Host.reduce_andi_all _ _ hr hu j0 e j
  exact isFin_of_cmp (x j) hj

/-- The precondition makes every entry of the three inputs a real number. -/
theorem finite_of_pre (x0 x1 : FVec Ideal Cert.Pre_finite_inputs.S32x128x256 .f32) (x2 : FVec Ideal Cert.Pre_finite_inputs.S32x128 .f32)
    (h : Cert.Pre_finite_inputs.fn (F := Ideal) x0 x1 x2 = fun _ => 1#1) :
    (∀ j, IsFin (x0 j)) ∧ (∀ j, IsFin (x1 j)) ∧ (∀ j, IsFin (x2 j)) := by
  have h0 := congrFun h (fun a => a.elim0)
  dsimp only [Cert.Pre_finite_inputs.fn] at h0
  obtain ⟨h01, h2⟩ := IntOp.andi_eq_one.1 h0
  obtain ⟨h0', h1⟩ := IntOp.andi_eq_one.1 h01
  exact ⟨all_isFin _ _ _ x0 _ h0', all_isFin _ _ _ x1 _ h1, all_isFin _ _ _ x2 _ h2⟩

end Cert.Mixture.Finite

end
-- ==== Proof.lean ====
/-
  A weighted mixture of rank-one matrices, computed two ways.

  For data arrays `r, im : [32, 128, 256]` and weights `w : [32, 128]` both programs produce, per batch `b`,
    real part       `∑ s, w[b,s] · (r[b,s,n]·r[b,s,m] + im[b,s,n]·im[b,s,m])`
    imaginary part  `∑ s, w[b,s] · (im[b,s,n]·r[b,s,m] − r[b,s,n]·im[b,s,m])`.
  The reference forms four weighted contractions over the sequence axis and combines them. The kernel works on
  blocks of eight batches and forms three: `P1 = (r·w)ᵀr`, `P2 = (im·w)ᵀim`, `P3 = (r·w + im·w)ᵀ(r − im)`, and
  returns `P1 + P2` and `(P3 − P1) + P2`. The real parts are the same sums. For the imaginary part, expanding
  `P3` gives `P1 − (r·w)ᵀim + (im·w)ᵀr − P2`, so `(P3 − P1) + P2` is the reference's difference; expanding a
  product over a sum and cancelling hold for real numbers and fail at the infinities of the extended reals, so
  this step uses that every input entry is finite, which is the precondition.

  The modules: `Spec` states the outputs as functions of the arguments and proves the three-contraction identity
  on finite arrays; `RefValue` reads the reference's run as those functions; `BodyValue` reads what the kernel
  body stores for one block; `ArrayValue` assembles the four blocks into the result arrays; `Finite` reads the
  precondition as "every entry is a real number". The idealized kernel is the kernel's own text read over the
  extended reals (no rewrite was applied), so nothing is owed for that conjunct.
-/
import proofs.«129453_j71313636983193_2_alg».proof.Defs
import proofs.«129453_j71313636983193_2_alg».proof.Proof.Gen.Kernel
import proofs.«129453_j71313636983193_2_alg».proof.Proof.Gen.Kernel.Skeleton
import proofs.«129453_j71313636983193_2_alg».proof.Proof.Gen.Kernel.Launch
import proofs.«129453_j71313636983193_2_alg».proof.Proof.Gen.Kernel.Points
import proofs.«129453_j71313636983193_2_alg».proof.Proof.Gen.Kernel.Frame
import proofs.«129453_j71313636983193_2_alg».proof.Proof.Gen.KernelIdeal
import proofs.«129453_j71313636983193_2_alg».proof.Proof.Gen.KernelIdeal.Skeleton
import proofs.«129453_j71313636983193_2_alg».proof.Proof.Gen.KernelIdeal.Launch
import proofs.«129453_j71313636983193_2_alg».proof.Proof.Gen.KernelIdeal.Points
import proofs.«129453_j71313636983193_2_alg».proof.Proof.Gen.KernelIdeal.Frame
import proofs.«129453_j71313636983193_2_alg».proof.Proof.Gen.ReferenceIdeal
import proofs.«129453_j71313636983193_2_alg».proof.Proof.Gen.Pre_finite_inputs
import proofs.«129453_j71313636983193_2_alg».proof.Proof.Gen.KernelIdeal.Value
import proofs.«129453_j71313636983193_2_alg».proof.Proof.Gen.ReferenceIdeal.Run
import proofs.«129453_j71313636983193_2_alg».proof.Proof.Gen.ReferenceIdeal.Read
import proofs.«129453_j71313636983193_2_alg».proof.Proof.Spec
import proofs.«129453_j71313636983193_2_alg».proof.Proof.RefValue
import proofs.«129453_j71313636983193_2_alg».proof.Proof.ArrayValue
import proofs.«129453_j71313636983193_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run, with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- No operation of the kernel was rewritten on the way to the extended reals. -/
theorem preserves : Cert.preserves_Kernel_KernelIdeal := trivial

/-- Both programs end with the real and the imaginary output of the (shared) arguments: the kernel's second
    result is the three-contraction form, which is the imaginary output because the arguments are finite. -/
theorem algebraic : Cert.algebraic_KernelIdeal_ReferenceIdeal := by
  intro m ρ m' ρ' hpre hagree
  refine ⟨fun c => Cert.Mixture.outRe (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    fun c => Cert.Mixture.outIm (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)), ?_, ?_⟩
  · refine (θ_run Cert.KernelIdeal.defs _ _).mono (fun r h c => ?_) (Cert.Mixture.Arrays.run m ρ)
    obtain ⟨hr, hi, hw⟩ := Cert.Mixture.Finite.finite_of_pre _ _ _ (hpre c)
    exact ⟨(h c).1, (h c).2.1.trans (Cert.Mixture.outImThree_eq _ _ _ hr hi hw), (h c).2.2⟩
  · refine (θ_run Cert.ReferenceIdeal.defs _ _).mono (fun r h c => ?_) (Cert.ReferenceIdeal.Value.run (F := Ideal) m' ρ')
    refine ⟨(h c).1.trans ?_, (h c).2.1.trans ?_, (h c).2.2⟩
    · rw [Cert.ReferenceIdeal.Read.val_main_v8_eq, Cert.Mixture.Ref.result_re, (hagree c).1, (hagree c).2.1, (hagree c).2.2]
    · rw [Cert.ReferenceIdeal.Read.val_main_v11_eq, Cert.Mixture.Ref.result_im, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
